-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x64 .f32) (main_arg1 : IVec S2x800000 32) (main_arg2 : FVec F S64x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S800000x128 : Shape := ⟨2, ![800000, 128]⟩
abbrev S1x64 : Shape := ⟨2, ![1, 64]⟩

abbrev nBuf : Space → Nat
  | .hbm => 46
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S_, .f32⟩
  | .hbm, ⟨24, _⟩ => ⟨S50000x64, .f32⟩
  | .hbm, ⟨25, _⟩ => ⟨S800000x1, .i32⟩
  | .hbm, ⟨26, _⟩ => ⟨S50000x64, .f32⟩
  | .hbm, ⟨27, _⟩ => ⟨S1x128, .f32⟩
  | .hbm, ⟨28, _⟩ => ⟨S1x128, .f32⟩
  | .hbm, ⟨29, _⟩ => ⟨S50000x128, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S1x128, .f32⟩
  | .hbm, ⟨44, _⟩ => ⟨S1x64, .f32⟩
  | .hbm, ⟨45, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S64_S1x64 : S64.ShapeCasts S1x64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x128 : Shape := ⟨2, ![50000, 128]⟩
abbrev S1x128 : Shape := ⟨2, ![1, 128]⟩
abbrev S800000x128 : Shape := ⟨2, ![800000, 128]⟩
abbrev S1x64 : Shape := ⟨2, ![1, 64]⟩

abbrev nBuf : Space → Nat
  | .hbm => 70
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S_, .f32⟩
  | .hbm, ⟨24, _⟩ => ⟨S50000x64, .f32⟩
  | .hbm, ⟨25, _⟩ => ⟨S800000x1, .i32⟩
  | .hbm, ⟨26, _⟩ => ⟨S50000x64, .f32⟩
  | .hbm, ⟨27, _⟩ => ⟨S50000x64, .f32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S50000x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S50000x128, .f32⟩
  | .hbm, ⟨62, _⟩ => ⟨S50000x128, .f32⟩
  | .hbm, ⟨63, _⟩ => ⟨S50000x64, .f32⟩
  | .hbm, ⟨64, _⟩ => ⟨S1x64, .f32⟩
  | .hbm, ⟨65, _⟩ => ⟨S50000x64, .f32⟩
  | .hbm, ⟨66, _⟩ => ⟨S50000x64, .f32⟩
  | .hbm, ⟨67, _⟩ => ⟨S_, .f32⟩
  | .hbm, ⟨68, _⟩ => ⟨S50000x64, .f32⟩
  | .hbm, ⟨69, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_c_1 : Ref sig .tc := ⟨.hbm, 42, rfl⟩
abbrev main_v25 : Ref sig .tc := ⟨.hbm, 43, rfl⟩
abbrev main_v26 : Ref sig .tc := ⟨.hbm, 44, rfl⟩
abbrev main_c_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call2_cst : Ref sig .tc := ⟨.hbm, 60, rfl⟩
abbrev main_call2_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call3_cst : Ref sig .tc := ⟨.hbm, 67, rfl⟩
abbrev main_call3_v0 : Ref sig .tc := ⟨.hbm, 68, rfl⟩
abbrev main_v45 : Ref sig .tc := ⟨.hbm, 69, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The kernel program's run with every buffer named: every weakly fair execution of the whole program (host
  operations, first call, host operations, second call) terminates without a fault, and every unscoped buffer of
  every core ends at the contents the fold of the program's segments gives it. The frame's post keeps the argument
  arrays only; the value claim needs the result array too, so the run is stated once more with the whole valuation
  in its post.
-/
import proofs.«144855_j14285061226552_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer ends at the last segment boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Whole

end
-- ==== Proof.KernelHost.lean ====
/-
  The host side of the kernel program at the extended reals: what each pallas_call's operand arrays hold when the
  call is entered, as terms of the argument arrays.
-/
import proofs.«144855_j14285061226552_1_alg».proof.Proof.Gen.KernelIdeal.Frame
import Idealize.ShloMosaic.Lib.StableHlo.Run
import Idealize.ShloMosaic.PureOps.Ideal

noncomputable section

namespace Cert.KernelIdeal.HostVal
open Cert.KernelIdeal Cert.KernelIdeal.Gen Idealize.ShloMosaic Idealize.ShloMosaic.TcCoe Idealize.SL.Sem Idealize.ShloMosaic.StableHlo

/-- Row 0 of the edge list: each edge's source node. -/
def src (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000

/-- Row 1 of the edge list: each edge's target node. -/
def dst (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- The source nodes as gather indices: a negative index counted from the end, one index per edge as a column. -/
def srcCol (s : (⟨S800000, .i32⟩ : BufTy).Contents (Elt Ideal)) : (⟨S800000x1, .i32⟩ : BufTy).Contents (Elt Ideal) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The aggregate of 64-feature rows: rows gathered by source node, summed into a zero array by target node. -/
def aggOf64 (s d : (⟨S800000, .i32⟩ : BufTy).Contents (Elt Ideal)) (x : (⟨S50000x64, .f32⟩ : BufTy).Contents (Elt Ideal)) :
    (⟨S50000x64, .f32⟩ : BufTy).Contents (Elt Ideal) :=
  Host.scatterAdd (F := Ideal) (φ := .f32) scatter_S50000x64_S800000x1_S800000x64_1_0_0_1
    (broadcastInDim S50000x64 ![] bcast_S_S50000x64 (constant (F := Ideal) S_ .f32 0x00000000#32))
    (broadcastInDim S800000x1 ![0] bcast_S800000_S800000x1_0 d)
    (Host.gather gather_S50000x64_S800000x1_S800000x64_1_0_n_n_0_1_164 x (srcCol s))

/-- The aggregate of 128-feature rows. -/
def aggOf128 (s d : (⟨S800000, .i32⟩ : BufTy).Contents (Elt Ideal)) (x : (⟨S50000x128, .f32⟩ : BufTy).Contents (Elt Ideal)) :
    (⟨S50000x128, .f32⟩ : BufTy).Contents (Elt Ideal) :=
  Host.scatterAdd (F := Ideal) (φ := .f32) scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (Host.gather gather_S50000x128_S800000x1_S800000x128_1_0_n_n_0_1_1128 x (srcCol s))

variable (m : (ℓ : Loc nD τ sig) → Buf (Elt Ideal) ℓ) (ρ : Dev nD → PrngReg)

/-! ## At the first call's entry -/

theorem W1_v1 (c : Dev nD) : (W1 m ρ c (Proc.devRef .tc main_v1) : (⟨S800000, .i32⟩ : BufTy).Contents (Elt Ideal))
    = src (m ((c : Thread nD τ).loc main_arg1)) := by
  show StableHlo.after hostOps0 (W0 m ρ c) (Proc.devRef .tc main_v1) = _
  after_results
  rfl

theorem W1_v13 (c : Dev nD) : (W1 m ρ c (Proc.devRef .tc main_v13) : (⟨S50000x64, .f32⟩ : BufTy).Contents (Elt Ideal))
    = aggOf64 (src (m ((c : Thread nD τ).loc main_arg1))) (dst (m ((c : Thread nD τ).loc main_arg1))) (m ((c : Thread nD τ).loc main_arg0)) := by
  show StableHlo.after hostOps0 (W0 m ρ c) (Proc.devRef .tc main_v13) = _
  after_results
  rfl

theorem W1_v3 (c : Dev nD) : (W1 m ρ c (Proc.devRef .tc main_v3) : (⟨S800000, .i32⟩ : BufTy).Contents (Elt Ideal))
    = dst (m ((c : Thread nD τ).loc main_arg1)) := by
  show StableHlo.after hostOps0 (W0 m ρ c) (Proc.devRef .tc main_v3) = _
  after_results
  rfl

theorem W1_arg0 (c : Dev nD) : W1 m ρ c (Proc.devRef .tc main_arg0) = m ((c : Thread nD τ).loc main_arg0) := by
  show StableHlo.after hostOps0 (W0 m ρ c) (Proc.devRef .tc main_arg0) = _
  after_results

theorem W1_arg2 (c : Dev nD) : W1 m ρ c (Proc.devRef .tc main_arg2) = m ((c : Thread nD τ).loc main_arg2) := by
  show StableHlo.after hostOps0 (W0 m ρ c) (Proc.devRef .tc main_arg2) = _
  after_results

theorem W1_arg4 (c : Dev nD) : W1 m ρ c (Proc.devRef .tc main_arg4) = m ((c : Thread nD τ).loc main_arg4) := by
  show StableHlo.after hostOps0 (W0 m ρ c) (Proc.devRef .tc main_arg4) = _
  after_results

theorem W1_arg6 (c : Dev nD) : W1 m ρ c (Proc.devRef .tc main_arg6) = m ((c : Thread nD τ).loc main_arg6) := by
  show StableHlo.after hostOps0 (W0 m ρ c) (Proc.devRef .tc main_arg6) = _
  after_results

theorem W1_arg7 (c : Dev nD) : W1 m ρ c (Proc.devRef .tc main_arg7) = m ((c : Thread nD τ).loc main_arg7) := by
  show StableHlo.after hostOps0 (W0 m ρ c) (Proc.devRef .tc main_arg7) = _
  after_results

theorem W1_arg8 (c : Dev nD) : W1 m ρ c (Proc.devRef .tc main_arg8) = m ((c : Thread nD τ).loc main_arg8) := by
  show StableHlo.after hostOps0 (W0 m ρ c) (Proc.devRef .tc main_arg8) = _
  after_results

theorem W1_arg9 (c : Dev nD) : W1 m ρ c (Proc.devRef .tc main_arg9) = m ((c : Thread nD τ).loc main_arg9) := by
  show StableHlo.after hostOps0 (W0 m ρ c) (Proc.devRef .tc main_arg9) = _
  after_results

theorem W1_v14 (c : Dev nD) : (W1 m ρ c (Proc.devRef .tc main_v14) : (⟨S1x128, .f32⟩ : BufTy).Contents (Elt Ideal))
    = shapeCast _ (m ((c : Thread nD τ).loc main_arg3)) shapeCasts_S128_S1x128 := by
  show StableHlo.after hostOps0 (W0 m ρ c) (Proc.devRef .tc main_v14) = _
  after_results
  rfl

theorem W1_v15 (c : Dev nD) : (W1 m ρ c (Proc.devRef .tc main_v15) : (⟨S1x128, .f32⟩ : BufTy).Contents (Elt Ideal))
    = shapeCast _ (m ((c : Thread nD τ).loc main_arg5)) shapeCasts_S128_S1x128 := by
  show StableHlo.after hostOps0 (W0 m ρ c) (Proc.devRef .tc main_v15) = _
  after_results
  rfl

/-! ## At the second call's entry: the first call's output array stands where it was written, the edge list's rows
    and the arguments are as before the first call -/

theorem W3_v16 (c : Dev nD) : W3 m ρ c (Proc.devRef .tc main_v16) = (dat0 (V1 m ρ) c).arrAt 6 cfg0.N := by
  refine Eq.trans ?_ (W2_arr m ρ c 6)
  show StableHlo.after hostOps1 (W2 m ρ c) (Proc.devRef .tc main_v16) = _
  after_results

theorem W3_v26 (c : Dev nD) : (W3 m ρ c (Proc.devRef .tc main_v26) : (⟨S50000x128, .f32⟩ : BufTy).Contents (Elt Ideal))
    = aggOf128 (src (m ((c : Thread nD τ).loc main_arg1))) (dst (m ((c : Thread nD τ).loc main_arg1))) ((dat0 (V1 m ρ) c).arrAt 6 cfg0.N) := by
  rw [← W1_v1 m ρ c, ← W1_v3 m ρ c, ← W2_of_ne m ρ c main_v1 (by decide), ← W2_of_ne m ρ c main_v3 (by decide), ← W2_arr m ρ c 6]
  show StableHlo.after hostOps1 (W2 m ρ c) (Proc.devRef .tc main_v26) = _
  after_results
  rfl

theorem W3_arg6 (c : Dev nD) : W3 m ρ c (Proc.devRef .tc main_arg6) = m ((c : Thread nD τ).loc main_arg6) := by
  rw [← W1_arg6 m ρ c, ← W2_of_ne m ρ c main_arg6 (by decide)]
  show StableHlo.after hostOps1 (W2 m ρ c) (Proc.devRef .tc main_arg6) = _
  after_results

theorem W3_arg8 (c : Dev nD) : W3 m ρ c (Proc.devRef .tc main_arg8) = m ((c : Thread nD τ).loc main_arg8) := by
  rw [← W1_arg8 m ρ c, ← W2_of_ne m ρ c main_arg8 (by decide)]
  show StableHlo.after hostOps1 (W2 m ρ c) (Proc.devRef .tc main_arg8) = _
  after_results

theorem W3_v27 (c : Dev nD) : (W3 m ρ c (Proc.devRef .tc main_v27) : (⟨S1x128, .f32⟩ : BufTy).Contents (Elt Ideal))
    = shapeCast _ (m ((c : Thread nD τ).loc main_arg7)) shapeCasts_S128_S1x128 := by
  rw [← W1_arg7 m ρ c, ← W2_of_ne m ρ c main_arg7 (by decide)]
  show StableHlo.after hostOps1 (W2 m ρ c) (Proc.devRef .tc main_v27) = _
  after_results
  rfl

theorem W3_v28 (c : Dev nD) : (W3 m ρ c (Proc.devRef .tc main_v28) : (⟨S1x64, .f32⟩ : BufTy).Contents (Elt Ideal))
    = shapeCast _ (m ((c : Thread nD τ).loc main_arg9)) shapeCasts_S64_S1x64 := by
  rw [← W1_arg9 m ρ c, ← W2_of_ne m ρ c main_arg9 (by decide)]
  show StableHlo.after hostOps1 (W2 m ρ c) (Proc.devRef .tc main_v28) = _
  after_results
  rfl

end Cert.KernelIdeal.HostVal
end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.LibDenseLayer.lean ====
/-
  A dense layer on the extended reals, and its reading at an entry on the matrix unit.

  The specification (namespace Cert.Bridge.Spec): for a matrix A with rows p and features k, weights W and a bias b,
  the unclamped layer's entry (p, q) is the sum over k of A[p, k] · W[k, q], plus b[q]; a hidden layer clamps that entry
  below at the zero word's value. Row p of either depends on row p of A alone, so re-indexing the rows of the input
  re-indexes the rows of the output (by unfolding): a block of rows can be computed on its own. Any row count, any
  widths.

  The reading (namespace Cert.Bridge.LayerAt): a matrix unit's product of an M × K by a K × N operand into a zero
  accumulator, plus a [1, N] bias row spread over the M rows, read at entry (p, q), is the unclamped layer over the
  operands' entries; with a clamp against a splat of the zero word it is the hidden layer; and followed by the change
  of float format that usually comes next (the identity on the extended reals) it is, as a whole matrix, the hidden
  layer of the operands' matrices, which is the form that lets consecutive layers be chained by congruence. Nothing
  here assumes finiteness: only the reading of a sum at its index.
-/
import proofs.«144855_j14285061226552_1_alg».proof.Proof.LibMatmul
import Idealize.ShloMosaic.PureOps.Ideal
import Idealize.ShloMosaic.Lib.ValueIdx
import Idealize.ShloMosaic.Lib.ValueLayout

noncomputable section

open scoped BigOperators

namespace Cert.Bridge.Spec

open Idealize.ShloMosaic

variable {M M' K N : Nat}

/-- The clamp's floor: the extended real the zero word of f32 denotes. -/
abbrev floor0 : EReal := Ideal.ofBits .f32 0x00000000#32

/-- The unclamped layer: entry (p, q) is the contraction of row p of A with column q of W, plus b[q]. -/
def head (A : Fin M → Fin K → EReal) (W : Fin K → Fin N → EReal) (b : Fin N → EReal) (p : Fin M) (q : Fin N) : EReal :=
  (∑ k : Fin K, A p k * W k q) + b q

/-- A hidden layer: the unclamped layer's entry, clamped below at the floor. -/
def layer (A : Fin M → Fin K → EReal) (W : Fin K → Fin N → EReal) (b : Fin N → EReal) (p : Fin M) (q : Fin N) : EReal :=
  max (head A W b p q) floor0

/-- Row p of a layer's output is a function of row p of its input alone: re-indexing the rows commutes with the layer. -/
theorem head_rows (σ : Fin M' → Fin M) (A : Fin M → Fin K → EReal) (W : Fin K → Fin N → EReal) (b : Fin N → EReal) :
    head (fun r => A (σ r)) W b = fun r => head A W b (σ r) := rfl

/-- The same for a hidden layer: the clamp acts entry by entry. -/
theorem layer_rows (σ : Fin M' → Fin M) (A : Fin M → Fin K → EReal) (W : Fin K → Fin N → EReal) (b : Fin N → EReal) :
    layer (fun r => A (σ r)) W b = fun r => layer A W b (σ r) := rfl

end Cert.Bridge.Spec

namespace Cert.Bridge.LayerAt

open Idealize.ShloMosaic Idealize.ShloMosaic.ValueIdx Cert.Bridge

variable {M K N : Nat}

/-- A matrix as a function of its two coordinates. (On the extended reals every element type is the same
    set, so the matrix is taken as a plain function of its index.) -/
abbrev mat (A : (⟨2, ![M, K]⟩ : Shape).Idx → EReal) : Fin M → Fin K → EReal := fun p k => A (ix2 p k)

/-- A one-row matrix as a function of its column. -/
abbrev row (b : (⟨2, ![1, N]⟩ : Shape).Idx → EReal) : Fin N → EReal := fun q => b (ix2 (0 : Fin 1) q)

/-- The unclamped layer on the matrix unit: product into zero plus the spread bias row. -/
theorem head_apply {φ₁ φ₂ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    addf (FloatOps.matmul (DotDims.plain M K N) prec A W (constant ⟨2, ![M, N]⟩ .f32 0x00000000#32))
        (broadcastTo ⟨2, ![M, N]⟩ b hb) (ix2 p q)
      = Spec.head (mat A) (mat W) (row b) p q := by
  rw [addf_apply, LibMatmul.matmul_zero_apply, broadcastTo_1b_ab_apply]
  rfl

/-- A hidden layer on the matrix unit: the unclamped layer, clamped against a splat of the zero word. The splat's
    scalar and the specification's floor are the same extended real, the one the zero word denotes. -/
theorem layer_apply {φ₁ φ₂ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    maximumf (addf (FloatOps.matmul (DotDims.plain M K N) prec A W (constant ⟨2, ![M, N]⟩ .f32 0x00000000#32))
        (broadcastTo ⟨2, ![M, N]⟩ b hb))
        (broadcast ⟨2, ![M, N]⟩ (Scalar.ofBits (F := Ideal) .f32 0x00000000#32)) (ix2 p q)
      = Spec.layer (mat A) (mat W) (row b) p q := by
  rw [maximumf_apply, head_apply, broadcast_apply]
  rfl

/-- The same, for the whole matrix at once and after the change of format that follows a hidden layer (the identity on
    the extended reals): the next layer's input matrix is the specification's layer of this layer's operands. -/
theorem layer_mat {φ₁ φ₂ ψ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (hψ : ψ.bits < FTy.f32.bits) :
    mat (truncf ψ (maximumf (addf (FloatOps.matmul (DotDims.plain M K N) prec A W (constant ⟨2, ![M, N]⟩ .f32 0x00000000#32))
        (broadcastTo ⟨2, ![M, N]⟩ b hb))
        (broadcast ⟨2, ![M, N]⟩ (Scalar.ofBits (F := Ideal) .f32 0x00000000#32))) hψ)
      = Spec.layer (mat A) (mat W) (row b) :=
  funext fun p => funext fun q => layer_apply prec A W b hb p q

end Cert.Bridge.LayerAt

end
-- ==== Proof.Net.lean ====
/-
  The network both programs compute, as one function of the argument arrays on the extended reals.

  A graph layer adds to every node's feature row the sum of its neighbours' rows (the aggregate, an array of the
  same shape, taken here as given) and passes the result through two dense layers, each clamped below at zero:
  entry (p, q) of the layer's output is

      max (∑ j, max (∑ k, (x[p,k] + a[p,k]) · Wa[k,j] + ba[j], 0) · Wb[j,q] + bb[q], 0).

  Row p of the output depends on row p of x and of a alone. The network is two such layers; the aggregate of each
  layer is a function of that layer's input (a gather of rows by source node followed by a sum by target node),
  and enters here as a parameter: nothing below depends on what it is, only on both programs using the same one.
-/
import proofs.«144855_j14285061226552_1_alg».proof.Proof.LibDenseLayer

noncomputable section

open scoped BigOperators

namespace Cert.Bridge.Net

open Idealize.ShloMosaic Idealize.ShloMosaic.ValueIdx Cert.Bridge Cert.Bridge.LayerAt

variable {N D H O : Nat}

/-- A vector of biases as a function of its one coordinate. -/
abbrev vec (b : (⟨1, ![H]⟩ : Shape).Idx → EReal) : Fin H → EReal := fun q => b (ix1 q)

/-- The sum of a node's own row and its aggregate, as a matrix of rows and features. -/
abbrev combine (x a : (⟨2, ![N, D]⟩ : Shape).Idx → EReal) : Fin N → Fin D → EReal :=
  fun p k => x (ix2 p k) + a (ix2 p k)

/-- One graph layer at row p and output feature q: two clamped dense layers over the combined rows. -/
def ginAt (x a : (⟨2, ![N, D]⟩ : Shape).Idx → EReal) (Wa : (⟨2, ![D, H]⟩ : Shape).Idx → EReal) (ba : Fin H → EReal)
    (Wb : (⟨2, ![H, O]⟩ : Shape).Idx → EReal) (bb : Fin O → EReal) (p : Fin N) (q : Fin O) : EReal :=
  Spec.layer (Spec.layer (combine x a) (mat Wa) ba) (mat Wb) bb p q

/-- One graph layer as an array over the node and output-feature axes. -/
def gin (x a : (⟨2, ![N, D]⟩ : Shape).Idx → EReal) (Wa : (⟨2, ![D, H]⟩ : Shape).Idx → EReal) (ba : Fin H → EReal)
    (Wb : (⟨2, ![H, O]⟩ : Shape).Idx → EReal) (bb : Fin O → EReal) : (⟨2, ![N, O]⟩ : Shape).Idx → EReal :=
  fun i => ginAt x a Wa ba Wb bb (i 0) (i 1)

theorem gin_ix2 (x a : (⟨2, ![N, D]⟩ : Shape).Idx → EReal) (Wa : (⟨2, ![D, H]⟩ : Shape).Idx → EReal) (ba : Fin H → EReal)
    (Wb : (⟨2, ![H, O]⟩ : Shape).Idx → EReal) (bb : Fin O → EReal) (p : Fin N) (q : Fin O) :
    gin x a Wa ba Wb bb (ix2 p q) = ginAt x a Wa ba Wb bb p q := rfl

/-- An array is the graph layer once each of its entries is. -/
theorem eq_gin (y : (⟨2, ![N, O]⟩ : Shape).Idx → EReal) (x a : (⟨2, ![N, D]⟩ : Shape).Idx → EReal)
    (Wa : (⟨2, ![D, H]⟩ : Shape).Idx → EReal) (ba : Fin H → EReal) (Wb : (⟨2, ![H, O]⟩ : Shape).Idx → EReal) (bb : Fin O → EReal)
    (h : ∀ (p : Fin N) (q : Fin O), y (ix2 p q) = ginAt x a Wa ba Wb bb p q) : y = gin x a Wa ba Wb bb := by
  funext i
  rw [eq_ix2 i]
  exact h (i 0) (i 1)

/-- The two-layer network over 50000 nodes: 64 input features, 128 hidden, 64 output; `A₁` and `A₂` give each
    layer's aggregate from that layer's input. -/
def net (A₁ : ((⟨2, ![50000, 64]⟩ : Shape).Idx → EReal) → (⟨2, ![50000, 64]⟩ : Shape).Idx → EReal)
    (A₂ : ((⟨2, ![50000, 128]⟩ : Shape).Idx → EReal) → (⟨2, ![50000, 128]⟩ : Shape).Idx → EReal)
    (x : (⟨2, ![50000, 64]⟩ : Shape).Idx → EReal)
    (W1a : (⟨2, ![64, 128]⟩ : Shape).Idx → EReal) (b1a : (⟨1, ![128]⟩ : Shape).Idx → EReal)
    (W1b : (⟨2, ![128, 128]⟩ : Shape).Idx → EReal) (b1b : (⟨1, ![128]⟩ : Shape).Idx → EReal)
    (W2a : (⟨2, ![128, 128]⟩ : Shape).Idx → EReal) (b2a : (⟨1, ![128]⟩ : Shape).Idx → EReal)
    (W2b : (⟨2, ![128, 64]⟩ : Shape).Idx → EReal) (b2b : (⟨1, ![64]⟩ : Shape).Idx → EReal) :
    (⟨2, ![50000, 64]⟩ : Shape).Idx → EReal :=
  gin (gin x (A₁ x) W1a (vec b1a) W1b (vec b1b)) (A₂ (gin x (A₁ x) W1a (vec b1a) W1b (vec b1b))) W2a (vec b2a) W2b (vec b2b)

end Cert.Bridge.Net

end
-- ==== Proof.KernelBody.lean ====
/-
  The kernel body's stored value, read at an entry: one graph layer over the body's blocks.

  The body adds a block of node rows to the same block of aggregates, multiplies by the first weight matrix into a
  zero accumulator, adds the first bias row to every row, clamps at zero, and does the same again with the second
  weight matrix and bias. The changes of float format on the way into each product are the identity on the
  extended reals, and a product into a zero accumulator read at (p, q) is the sum over the contracted axis, so the
  stored entry (p, q) is the graph layer of the specification over the block's rows.
-/
import proofs.«144855_j14285061226552_1_alg».proof.Proof.Gen.KernelIdeal.Skeleton
import proofs.«144855_j14285061226552_1_alg».proof.Proof.Net
import Idealize.ShloMosaic.Lib.Pipeline.Value

noncomputable section

namespace Cert.KernelIdeal.Body
open Cert.KernelIdeal Cert.KernelIdeal.Gen Idealize.ShloMosaic Idealize.ShloMosaic.ValueIdx
open Cert.Bridge Cert.Bridge.LayerAt

variable {M K H O : Nat}

/-- Two clamped dense layers on the matrix unit over the sum of two blocks, read at (p, q): the graph layer. -/
theorem fused_apply (x0 x1 : FVec Ideal ⟨2, ![M, K]⟩ .f32) (x2 : FVec Ideal ⟨2, ![K, H]⟩ .f32) (x3 : FVec Ideal ⟨2, ![1, H]⟩ .f32)
    (x4 : FVec Ideal ⟨2, ![H, O]⟩ .f32) (x5 : FVec Ideal ⟨2, ![1, O]⟩ .f32)
    (hb3 : (⟨2, ![1, H]⟩ : Shape).Broadcasts ⟨2, ![M, H]⟩) (hb5 : (⟨2, ![1, O]⟩ : Shape).Broadcasts ⟨2, ![M, O]⟩)
    (hbits : FTy.bf16.bits < FTy.f32.bits) (p : Fin M) (q : Fin O) :
    maximumf (addf (FloatOps.matmul (DotDims.plain M H O) none
        (truncf .bf16 (maximumf (addf (FloatOps.matmul (DotDims.plain M K H) none (truncf .bf16 (addf x0 x1) hbits) (truncf .bf16 x2 hbits)
            (constant ⟨2, ![M, H]⟩ .f32 0x00000000#32)) (broadcastTo ⟨2, ![M, H]⟩ x3 hb3))
          (broadcast ⟨2, ![M, H]⟩ (Scalar.ofBits (F := Ideal) .f32 0x00000000#32))) hbits)
        (truncf .bf16 x4 hbits) (constant ⟨2, ![M, O]⟩ .f32 0x00000000#32)) (broadcastTo ⟨2, ![M, O]⟩ x5 hb5))
      (broadcast ⟨2, ![M, O]⟩ (Scalar.ofBits (F := Ideal) .f32 0x00000000#32)) (ix2 p q)
      = Net.ginAt x0 x1 x2 (row x3) x4 (row x5) p q := by
  refine (layer_apply none _ _ x5 hb5 p q).trans ?_
  rw [layer_mat none (truncf .bf16 (addf x0 x1) hbits) (truncf .bf16 x2 hbits) x3 hb3 hbits]
  rfl

/-- Region 0's stored value at entry (p, q). -/
theorem pay0_apply (x0 x1 : Vec Ideal S5000x64 .f32) (x2 : Vec Ideal S64x128 .f32) (x3 : Vec Ideal S1x128 .f32)
    (x4 : Vec Ideal S128x128 .f32) (x5 : Vec Ideal S1x128 .f32) (p : Fin 5000) (q : Fin 128) :
    k0_pay1 (F := Ideal) x0 x1 x2 x3 x4 x5 (ix2 p q) = Net.ginAt x0 x1 x2 (row x3) x4 (row x5) p q := by
  unfold k0_pay1
  simp only [shapeCast_self]
  exact fused_apply x0 x1 x2 x3 x4 x5 _ _ _ p q

/-- Region 1's stored value at entry (p, q). -/
theorem pay1_apply (x0 x1 : Vec Ideal S5000x128 .f32) (x2 : Vec Ideal S128x128 .f32) (x3 : Vec Ideal S1x128 .f32)
    (x4 : Vec Ideal S128x64 .f32) (x5 : Vec Ideal S1x64 .f32) (p : Fin 5000) (q : Fin 64) :
    k1_pay1 (F := Ideal) x0 x1 x2 x3 x4 x5 (ix2 p q) = Net.ginAt x0 x1 x2 (row x3) x4 (row x5) p q := by
  unfold k1_pay1
  simp only [shapeCast_self]
  exact fused_apply x0 x1 x2 x3 x4 x5 _ _ _ p q

end Cert.KernelIdeal.Body
end
-- ==== Proof.KernelBlocks.lean ====
/-
  From blocks to the array, for both calls of the fused graph-layer kernel.

  Each call cuts the 50000 node rows into ten blocks of 5000 rows: at grid point t the two row-blocked inputs (the node
  features and their aggregate) and the output are at rows 5000 t, …, 5000 t + 4999, all columns, while the two weight
  matrices and the two bias rows are their whole arrays at every point. Entry (p, q) of a graph layer depends on row p of
  the features and of the aggregate alone, so the layer computed on block t is rows 5000 t, …, 5000 t + 4999 of the layer
  computed on the whole arrays; the ten blocks cover every row (row r lies in block r / 5000), so the output array ends
  holding that layer.
-/
import proofs.«144855_j14285061226552_1_alg».proof.Proof.Gen.KernelIdeal.Frame
import proofs.«144855_j14285061226552_1_alg».proof.Proof.KernelBody
import Idealize.ShloMosaic.Lib.Pipeline.Value
import Idealize.ShloMosaic.Lib.ValueIdx

noncomputable section

namespace Cert.KernelIdeal.Blocks
open Cert.KernelIdeal Cert.KernelIdeal.Gen Idealize.ShloMosaic Idealize.ShloMosaic.TcCoe Idealize.ShloMosaic.ValueIdx Idealize.SL.Sem
open Cert.Bridge Cert.Bridge.LayerAt

/-- The zero offsets of a whole-block load or store, as the constant function. -/
theorem origin : (![0, 0] : Fin 2 → Nat) = fun _ => 0 := funext fun a => by fin_cases a <;> rfl

/-- Row p of a graph layer over a block of rows is row σ p of the layer over the whole arrays, when row r of each
    row-blocked input is row σ r of its array: the combined rows agree, and a dense layer acts row by row. -/
theorem ginAt_rows {n N D H O : Nat} (σ : Fin n → Fin N)
    (x a : (⟨2, ![n, D]⟩ : Shape).Idx → EReal) (X A : (⟨2, ![N, D]⟩ : Shape).Idx → EReal)
    (Wa : (⟨2, ![D, H]⟩ : Shape).Idx → EReal) (ba : Fin H → EReal) (Wb : (⟨2, ![H, O]⟩ : Shape).Idx → EReal) (bb : Fin O → EReal)
    (hx : ∀ r k, x (ix2 r k) = X (ix2 (σ r) k)) (ha : ∀ r k, a (ix2 r k) = A (ix2 (σ r) k)) (p : Fin n) (q : Fin O) :
    Net.ginAt x a Wa ba Wb bb p q = Net.ginAt X A Wa ba Wb bb (σ p) q := by
  have hc : Net.combine x a = fun r => Net.combine X A (σ r) :=
    funext fun r => funext fun k => by
      show x (ix2 r k) + a (ix2 r k) = X (ix2 (σ r) k) + A (ix2 (σ r) k)
      rw [hx, ha]
  unfold Net.ginAt
  rw [hc]
  rfl

/-! ## Region 0: a graph layer from 64 to 128 features through 128 hidden ones -/

/-- The block index maps over the grid: the two row-blocked inputs and the output are at block (t, 0) at point t,
    the weights and biases at block (0, 0) throughout. -/
theorem blockIndex0 : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = 0 ∧ win0_5.index t (1 : Fin 2) = 0
  ∧ win0_6.index t (0 : Fin 2) = t.val ∧ win0_6.index t (1 : Fin 2) = 0 :=
  (by decide +kernel : ∀ t : Fin grid0.N, _)

/-- The payload at entry j of a block is the layer at entry i of the array, when the block's rows are rows
    5000 b, …, 5000 b + 4999 of the two row-blocked arrays, the other four blocks are their whole arrays, and i is
    j moved down by 5000 b rows. -/
theorem rowBlock0 (x0 x1 : Vec Ideal S5000x64 .f32) (x2 : Vec Ideal S64x128 .f32) (x3 : Vec Ideal S1x128 .f32)
    (x4 : Vec Ideal S128x128 .f32) (x5 : Vec Ideal S1x128 .f32)
    (X0 X1 : S50000x64.Idx → EReal) (X2 : S64x128.Idx → EReal) (X3 : S1x128.Idx → EReal) (X4 : S128x128.Idx → EReal) (X5 : S1x128.Idx → EReal)
    (b : Nat) (hb : b < 10)
    (h0 : ∀ (r : Fin 5000) (k : Fin 64) (hlt : b * 5000 + r.val < 50000), x0 (ix2 r k) = X0 (ix2 (⟨b * 5000 + r.val, hlt⟩ : Fin 50000) k))
    (h1 : ∀ (r : Fin 5000) (k : Fin 64) (hlt : b * 5000 + r.val < 50000), x1 (ix2 r k) = X1 (ix2 (⟨b * 5000 + r.val, hlt⟩ : Fin 50000) k))
    (h2 : x2 = X2) (h3 : x3 = X3) (h4 : x4 = X4) (h5 : x5 = X5)
    (j : S5000x128.Idx) (i : S50000x128.Idx) (hi0 : (i 0).val = b * 5000 + (j 0).val) (hi1 : (i 1).val = (j 1).val) :
    k0_pay1 (F := Ideal) x0 x1 x2 x3 x4 x5 j = Net.gin X0 X1 X2 (row X3) X4 (row X5) i := by
  subst h2 h3 h4 h5
  obtain ⟨p, q, rfl⟩ : ∃ (p : Fin 5000) (q : Fin 128), j = ix2 p q := ⟨j 0, j 1, eq_ix2 j⟩
  have hrow : ∀ r : Fin 5000, b * 5000 + r.val < 50000 := fun r => by have := r.isLt; omega
  obtain ⟨P, Q, rfl⟩ : ∃ (P : Fin 50000) (Q : Fin 128), i = ix2 P Q := ⟨i 0, i 1, eq_ix2 i⟩
  have eP : P = ⟨b * 5000 + p.val, hrow p⟩ := Fin.ext hi0
  have eQ : Q = q := Fin.ext hi1
  subst eP eQ
  rw [Body.pay0_apply, Net.gin_ix2]
  exact ginAt_rows (fun r : Fin 5000 => (⟨b * 5000 + r.val, hrow r⟩ : Fin 50000)) x0 x1 X0 X1 x2 (row x3) x4 (row x5)
    (fun r k => h0 r k (hrow r)) (fun r k => h1 r k (hrow r)) p Q

section
variable (V : (c : Dev nD) → (b : Ref sig .tc) → Buf (Elt Ideal) ((c : Thread nD τ).loc b)) (c : Dev nD) (t : Fin cfg0.N)

/-- Row r of the node features' block at point t is row 5000 t + r of the array. -/
theorem block0_0 (r : Fin 5000) (k : Fin 64) (hlt : t.val * 5000 + r.val < 50000) :
    (iblk0 V c 0 t : Vec Ideal S5000x64 .f32) (ix2 r k)
      = (V c main_arg0 : S50000x64.Idx → EReal) (ix2 (⟨t.val * 5000 + r.val, hlt⟩ : Fin 50000) k) := by
  obtain ⟨e0, e1, -⟩ := blockIndex0 t
  unfold iblk0
  rw [View.read_apply]
  show V c main_arg0 _ = V c main_arg0 _
  congr 1
  funext a
  apply Fin.ext
  match a with
  | ⟨0, _⟩ => show win0_0.index t 0 * 5000 + 1 * r.val = t.val * 5000 + r.val; rw [e0]; omega
  | ⟨1, _⟩ => show win0_0.index t 1 * 64 + 1 * k.val = k.val; rw [e1]; omega

/-- The same for the aggregate's block. -/
theorem block0_1 (r : Fin 5000) (k : Fin 64) (hlt : t.val * 5000 + r.val < 50000) :
    (iblk0 V c 1 t : Vec Ideal S5000x64 .f32) (ix2 r k)
      = (V c main_v13 : S50000x64.Idx → EReal) (ix2 (⟨t.val * 5000 + r.val, hlt⟩ : Fin 50000) k) := by
  obtain ⟨-, -, e0, e1, -⟩ := blockIndex0 t
  unfold iblk0
  rw [View.read_apply]
  show V c main_v13 _ = V c main_v13 _
  congr 1
  funext a
  apply Fin.ext
  match a with
  | ⟨0, _⟩ => show win0_1.index t 0 * 5000 + 1 * r.val = t.val * 5000 + r.val; rw [e0]; omega
  | ⟨1, _⟩ => show win0_1.index t 1 * 64 + 1 * k.val = k.val; rw [e1]; omega

/-- The first layer's weights are one block, the whole array, at every point. -/
theorem block0_2 : (iblk0 V c 2 t : Vec Ideal S64x128 .f32) = V c main_arg2 := by
  obtain ⟨-, -, -, -, e0, e1, -⟩ := blockIndex0 t
  funext j
  unfold iblk0
  rw [View.read_apply]
  show V c main_arg2 _ = V c main_arg2 j
  congr 1
  funext a
  apply Fin.ext
  match a with
  | ⟨0, _⟩ => show win0_2.index t 0 * 64 + 1 * (j 0).val = (j 0).val; rw [e0]; omega
  | ⟨1, _⟩ => show win0_2.index t 1 * 128 + 1 * (j 1).val = (j 1).val; rw [e1]; omega

/-- So is the first layer's bias row. -/
theorem block0_3 : (iblk0 V c 3 t : Vec Ideal S1x128 .f32) = V c main_v14 := by
  obtain ⟨-, -, -, -, -, -, e0, e1, -⟩ := blockIndex0 t
  funext j
  unfold iblk0
  rw [View.read_apply]
  show V c main_v14 _ = V c main_v14 j
  congr 1
  funext a
  apply Fin.ext
  match a with
  | ⟨0, _⟩ => show win0_3.index t 0 * 1 + 1 * (j 0).val = (j 0).val; rw [e0]; omega
  | ⟨1, _⟩ => show win0_3.index t 1 * 128 + 1 * (j 1).val = (j 1).val; rw [e1]; omega

/-- So are the second layer's weights. -/
theorem block0_4 : (iblk0 V c 4 t : Vec Ideal S128x128 .f32) = V c main_arg4 := by
  obtain ⟨-, -, -, -, -, -, -, -, e0, e1, -⟩ := blockIndex0 t
  funext j
  unfold iblk0
  rw [View.read_apply]
  show V c main_arg4 _ = V c main_arg4 j
  congr 1
  funext a
  apply Fin.ext
  match a with
  | ⟨0, _⟩ => show win0_4.index t 0 * 128 + 1 * (j 0).val = (j 0).val; rw [e0]; omega
  | ⟨1, _⟩ => show win0_4.index t 1 * 128 + 1 * (j 1).val = (j 1).val; rw [e1]; omega

/-- And the second layer's bias row. -/
theorem block0_5 : (iblk0 V c 5 t : Vec Ideal S1x128 .f32) = V c main_v15 := by
  obtain ⟨-, -, -, -, -, -, -, -, -, -, e0, e1, -⟩ := blockIndex0 t
  funext j
  unfold iblk0
  rw [View.read_apply]
  show V c main_v15 _ = V c main_v15 j
  congr 1
  funext a
  apply Fin.ext
  match a with
  | ⟨0, _⟩ => show win0_5.index t 0 * 1 + 1 * (j 0).val = (j 0).val; rw [e0]; omega
  | ⟨1, _⟩ => show win0_5.index t 1 * 128 + 1 * (j 1).val = (j 1).val; rw [e1]; omega

/-- What point t writes back is block t of the layer over the whole arrays: rows 5000 t, …, 5000 t + 4999 of the
    layer's output depend on the same rows of the features and of the aggregate, and on all of the weights. -/
theorem flushed0 :
    (dat0 (F := Ideal) V c).flushed 6 t = ((cfg0.win 6).blk t).view.read (Elt Ideal)
      (Net.gin (V c main_arg0) (V c main_v13) (V c main_arg2) (row (V c main_v14)) (V c main_arg4) (row (V c main_v15))) := by
  show (cfg0.win 6).cut (grid0.coords t) ((dat0 V c).after 6 t) = _
  rw [after0_6]
  unfold out0_6
  rw [View.canon_unit_zero origin]
  simp only [View.ld_unit_zero (S := S5000x64) origin, View.ld_unit_zero (S := S64x128) origin, View.ld_unit_zero (S := S1x128) origin, View.ld_unit_zero (S := S128x128) origin]
  have ht : t.val < 10 := Nat.lt_of_lt_of_eq t.isLt (show cfg0.N = 10 from N_0)
  obtain ⟨-, -, -, -, -, -, -, -, -, -, -, -, e0, e1⟩ := blockIndex0 t
  funext y
  refine rowBlock0 (iblk0 V c 0 t) (iblk0 V c 1 t) (iblk0 V c 2 t) (iblk0 V c 3 t) (iblk0 V c 4 t) (iblk0 V c 5 t)
    (V c main_arg0) (V c main_v13) (V c main_arg2) (V c main_v14) (V c main_arg4) (V c main_v15) t.val ht
    (fun r k hlt => block0_0 V c t r k hlt) (fun r k hlt => block0_1 V c t r k hlt)
    (block0_2 V c t) (block0_3 V c t) (block0_4 V c t) (block0_5 V c t)
    ((cfg0.win 6).xinj (grid0.coords t) y) (((cfg0.win 6).blk t).view.emb y) ?_ ?_
  · show win0_6.index t 0 * 5000 + 1 * (y 0).val = t.val * 5000 + (y 0).val
    rw [e0]; omega
  · show win0_6.index t 1 * 128 + 1 * (y 1).val = (y 1).val
    rw [e1]; omega

end

/-- An entry of the output array is in point t's block iff each of its coordinates is in the block's range. -/
theorem mem_rowBlock0 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v16).slice (win0_6.rect t)).set ↔ _
  rw [View.set_slice_whole, Rect.mem_set_unit]
  exact Iff.rfl

/-- Every entry of the output array is in some point's block: row r is in the block of point r / 5000. -/
theorem covered0 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, -, -, -, -, -, -, e0, e1⟩ := blockIndex0 t
  refine ⟨t, flush0_6 t, ?_⟩
  rw [mem_rowBlock0]
  intro a
  match a with
  | ⟨0, _⟩ =>
    show win0_6.index t 0 * 5000 ≤ (i 0).val ∧ (i 0).val < win0_6.index t 0 * 5000 + 5000
    rw [e0, ht]; omega
  | ⟨1, _⟩ =>
    show win0_6.index t 1 * 128 ≤ (i 1).val ∧ (i 1).val < win0_6.index t 1 * 128 + 128
    rw [e1]; omega

/-- The output array after the region is the graph layer of the arrays the region found on entry. -/
theorem arr0 (V : (c : Dev nD) → (b : Ref sig .tc) → Buf (Elt Ideal) ((c : Thread nD τ).loc b)) (c : Dev nD) :
    (dat0 (F := Ideal) V c).arrAt 6 cfg0.N
      = Net.gin (V c main_arg0) (V c main_v13) (V c main_arg2) (row (V c main_v14)) (V c main_arg4) (row (V c main_v15)) :=
  (dat0 (F := Ideal) V c).arrAt_eq_of_cover 6
    (Net.gin (V c main_arg0) (V c main_v13) (V c main_arg2) (row (V c main_v14)) (V c main_arg4) (row (V c main_v15)))
    (fun t _ => flushed0 V c t) covered0

/-! ## Region 1: a graph layer from 128 to 64 features through 128 hidden ones -/

/-- The block index maps over the grid: the two row-blocked inputs and the output are at block (t, 0) at point t,
    the weights and biases at block (0, 0) throughout. -/
theorem blockIndex1 : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = 0 ∧ win1_2.index t (1 : Fin 2) = 0
  ∧ win1_3.index t (0 : Fin 2) = 0 ∧ win1_3.index t (1 : Fin 2) = 0
  ∧ win1_4.index t (0 : Fin 2) = 0 ∧ win1_4.index t (1 : Fin 2) = 0
  ∧ win1_5.index t (0 : Fin 2) = 0 ∧ win1_5.index t (1 : Fin 2) = 0
  ∧ win1_6.index t (0 : Fin 2) = t.val ∧ win1_6.index t (1 : Fin 2) = 0 :=
  (by decide +kernel : ∀ t : Fin grid1.N, _)

/-- The payload at entry j of a block is the layer at entry i of the array, when the block's rows are rows
    5000 b, …, 5000 b + 4999 of the two row-blocked arrays, the other four blocks are their whole arrays, and i is
    j moved down by 5000 b rows. -/
theorem rowBlock1 (x0 x1 : Vec Ideal S5000x128 .f32) (x2 : Vec Ideal S128x128 .f32) (x3 : Vec Ideal S1x128 .f32)
    (x4 : Vec Ideal S128x64 .f32) (x5 : Vec Ideal S1x64 .f32)
    (X0 X1 : S50000x128.Idx → EReal) (X2 : S128x128.Idx → EReal) (X3 : S1x128.Idx → EReal) (X4 : S128x64.Idx → EReal) (X5 : S1x64.Idx → EReal)
    (b : Nat) (hb : b < 10)
    (h0 : ∀ (r : Fin 5000) (k : Fin 128) (hlt : b * 5000 + r.val < 50000), x0 (ix2 r k) = X0 (ix2 (⟨b * 5000 + r.val, hlt⟩ : Fin 50000) k))
    (h1 : ∀ (r : Fin 5000) (k : Fin 128) (hlt : b * 5000 + r.val < 50000), x1 (ix2 r k) = X1 (ix2 (⟨b * 5000 + r.val, hlt⟩ : Fin 50000) k))
    (h2 : x2 = X2) (h3 : x3 = X3) (h4 : x4 = X4) (h5 : x5 = X5)
    (j : S5000x64.Idx) (i : S50000x64.Idx) (hi0 : (i 0).val = b * 5000 + (j 0).val) (hi1 : (i 1).val = (j 1).val) :
    k1_pay1 (F := Ideal) x0 x1 x2 x3 x4 x5 j = Net.gin X0 X1 X2 (row X3) X4 (row X5) i := by
  subst h2 h3 h4 h5
  obtain ⟨p, q, rfl⟩ : ∃ (p : Fin 5000) (q : Fin 64), j = ix2 p q := ⟨j 0, j 1, eq_ix2 j⟩
  have hrow : ∀ r : Fin 5000, b * 5000 + r.val < 50000 := fun r => by have := r.isLt; omega
  obtain ⟨P, Q, rfl⟩ : ∃ (P : Fin 50000) (Q : Fin 64), i = ix2 P Q := ⟨i 0, i 1, eq_ix2 i⟩
  have eP : P = ⟨b * 5000 + p.val, hrow p⟩ := Fin.ext hi0
  have eQ : Q = q := Fin.ext hi1
  subst eP eQ
  rw [Body.pay1_apply, Net.gin_ix2]
  exact ginAt_rows (fun r : Fin 5000 => (⟨b * 5000 + r.val, hrow r⟩ : Fin 50000)) x0 x1 X0 X1 x2 (row x3) x4 (row x5)
    (fun r k => h0 r k (hrow r)) (fun r k => h1 r k (hrow r)) p Q

section
variable (V : (c : Dev nD) → (b : Ref sig .tc) → Buf (Elt Ideal) ((c : Thread nD τ).loc b)) (c : Dev nD) (t : Fin cfg1.N)

/-- Row r of the node features' block at point t is row 5000 t + r of the array. -/
theorem block1_0 (r : Fin 5000) (k : Fin 128) (hlt : t.val * 5000 + r.val < 50000) :
    (iblk1 V c 0 t : Vec Ideal S5000x128 .f32) (ix2 r k)
      = (V c main_v16 : S50000x128.Idx → EReal) (ix2 (⟨t.val * 5000 + r.val, hlt⟩ : Fin 50000) k) := by
  obtain ⟨e0, e1, -⟩ := blockIndex1 t
  unfold iblk1
  rw [View.read_apply]
  show V c main_v16 _ = V c main_v16 _
  congr 1
  funext a
  apply Fin.ext
  match a with
  | ⟨0, _⟩ => show win1_0.index t 0 * 5000 + 1 * r.val = t.val * 5000 + r.val; rw [e0]; omega
  | ⟨1, _⟩ => show win1_0.index t 1 * 128 + 1 * k.val = k.val; rw [e1]; omega

/-- The same for the aggregate's block. -/
theorem block1_1 (r : Fin 5000) (k : Fin 128) (hlt : t.val * 5000 + r.val < 50000) :
    (iblk1 V c 1 t : Vec Ideal S5000x128 .f32) (ix2 r k)
      = (V c main_v26 : S50000x128.Idx → EReal) (ix2 (⟨t.val * 5000 + r.val, hlt⟩ : Fin 50000) k) := by
  obtain ⟨-, -, e0, e1, -⟩ := blockIndex1 t
  unfold iblk1
  rw [View.read_apply]
  show V c main_v26 _ = V c main_v26 _
  congr 1
  funext a
  apply Fin.ext
  match a with
  | ⟨0, _⟩ => show win1_1.index t 0 * 5000 + 1 * r.val = t.val * 5000 + r.val; rw [e0]; omega
  | ⟨1, _⟩ => show win1_1.index t 1 * 128 + 1 * k.val = k.val; rw [e1]; omega

/-- The first layer's weights are one block, the whole array, at every point. -/
theorem block1_2 : (iblk1 V c 2 t : Vec Ideal S128x128 .f32) = V c main_arg6 := by
  obtain ⟨-, -, -, -, e0, e1, -⟩ := blockIndex1 t
  funext j
  unfold iblk1
  rw [View.read_apply]
  show V c main_arg6 _ = V c main_arg6 j
  congr 1
  funext a
  apply Fin.ext
  match a with
  | ⟨0, _⟩ => show win1_2.index t 0 * 128 + 1 * (j 0).val = (j 0).val; rw [e0]; omega
  | ⟨1, _⟩ => show win1_2.index t 1 * 128 + 1 * (j 1).val = (j 1).val; rw [e1]; omega

/-- So is the first layer's bias row. -/
theorem block1_3 : (iblk1 V c 3 t : Vec Ideal S1x128 .f32) = V c main_v27 := by
  obtain ⟨-, -, -, -, -, -, e0, e1, -⟩ := blockIndex1 t
  funext j
  unfold iblk1
  rw [View.read_apply]
  show V c main_v27 _ = V c main_v27 j
  congr 1
  funext a
  apply Fin.ext
  match a with
  | ⟨0, _⟩ => show win1_3.index t 0 * 1 + 1 * (j 0).val = (j 0).val; rw [e0]; omega
  | ⟨1, _⟩ => show win1_3.index t 1 * 128 + 1 * (j 1).val = (j 1).val; rw [e1]; omega

/-- So are the second layer's weights. -/
theorem block1_4 : (iblk1 V c 4 t : Vec Ideal S128x64 .f32) = V c main_arg8 := by
  obtain ⟨-, -, -, -, -, -, -, -, e0, e1, -⟩ := blockIndex1 t
  funext j
  unfold iblk1
  rw [View.read_apply]
  show V c main_arg8 _ = V c main_arg8 j
  congr 1
  funext a
  apply Fin.ext
  match a with
  | ⟨0, _⟩ => show win1_4.index t 0 * 128 + 1 * (j 0).val = (j 0).val; rw [e0]; omega
  | ⟨1, _⟩ => show win1_4.index t 1 * 64 + 1 * (j 1).val = (j 1).val; rw [e1]; omega

/-- And the second layer's bias row. -/
theorem block1_5 : (iblk1 V c 5 t : Vec Ideal S1x64 .f32) = V c main_v28 := by
  obtain ⟨-, -, -, -, -, -, -, -, -, -, e0, e1, -⟩ := blockIndex1 t
  funext j
  unfold iblk1
  rw [View.read_apply]
  show V c main_v28 _ = V c main_v28 j
  congr 1
  funext a
  apply Fin.ext
  match a with
  | ⟨0, _⟩ => show win1_5.index t 0 * 1 + 1 * (j 0).val = (j 0).val; rw [e0]; omega
  | ⟨1, _⟩ => show win1_5.index t 1 * 64 + 1 * (j 1).val = (j 1).val; rw [e1]; omega

/-- What point t writes back is block t of the layer over the whole arrays: rows 5000 t, …, 5000 t + 4999 of the
    layer's output depend on the same rows of the features and of the aggregate, and on all of the weights. -/
theorem flushed1 :
    (dat1 (F := Ideal) V c).flushed 6 t = ((cfg1.win 6).blk t).view.read (Elt Ideal)
      (Net.gin (V c main_v16) (V c main_v26) (V c main_arg6) (row (V c main_v27)) (V c main_arg8) (row (V c main_v28))) := by
  show (cfg1.win 6).cut (grid1.coords t) ((dat1 V c).after 6 t) = _
  rw [after1_6]
  unfold out1_6
  rw [View.canon_unit_zero origin]
  simp only [View.ld_unit_zero (S := S5000x128) origin, View.ld_unit_zero (S := S128x128) origin, View.ld_unit_zero (S := S1x128) origin, View.ld_unit_zero (S := S128x64) origin, View.ld_unit_zero (S := S1x64) origin]
  have ht : t.val < 10 := Nat.lt_of_lt_of_eq t.isLt (show cfg1.N = 10 from N_1)
  obtain ⟨-, -, -, -, -, -, -, -, -, -, -, -, e0, e1⟩ := blockIndex1 t
  funext y
  refine rowBlock1 (iblk1 V c 0 t) (iblk1 V c 1 t) (iblk1 V c 2 t) (iblk1 V c 3 t) (iblk1 V c 4 t) (iblk1 V c 5 t)
    (V c main_v16) (V c main_v26) (V c main_arg6) (V c main_v27) (V c main_arg8) (V c main_v28) t.val ht
    (fun r k hlt => block1_0 V c t r k hlt) (fun r k hlt => block1_1 V c t r k hlt)
    (block1_2 V c t) (block1_3 V c t) (block1_4 V c t) (block1_5 V c t)
    ((cfg1.win 6).xinj (grid1.coords t) y) (((cfg1.win 6).blk t).view.emb y) ?_ ?_
  · show win1_6.index t 0 * 5000 + 1 * (y 0).val = t.val * 5000 + (y 0).val
    rw [e0]; omega
  · show win1_6.index t 1 * 64 + 1 * (y 1).val = (y 1).val
    rw [e1]; omega

end

/-- An entry of the output array is in point t's block iff each of its coordinates is in the block's range. -/
theorem mem_rowBlock1 (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v29).slice (win1_6.rect t)).set ↔ _
  rw [View.set_slice_whole, Rect.mem_set_unit]
  exact Iff.rfl

/-- Every entry of the output array is in some point's block: row r is in the block of point r / 5000. -/
theorem covered1 (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, -, -, -, -, -, -, e0, e1⟩ := blockIndex1 t
  refine ⟨t, flush1_6 t, ?_⟩
  rw [mem_rowBlock1]
  intro a
  match a with
  | ⟨0, _⟩ =>
    show win1_6.index t 0 * 5000 ≤ (i 0).val ∧ (i 0).val < win1_6.index t 0 * 5000 + 5000
    rw [e0, ht]; omega
  | ⟨1, _⟩ =>
    show win1_6.index t 1 * 64 ≤ (i 1).val ∧ (i 1).val < win1_6.index t 1 * 64 + 64
    rw [e1]; omega

/-- The output array after the region is the graph layer of the arrays the region found on entry. -/
theorem arr1 (V : (c : Dev nD) → (b : Ref sig .tc) → Buf (Elt Ideal) ((c : Thread nD τ).loc b)) (c : Dev nD) :
    (dat1 (F := Ideal) V c).arrAt 6 cfg1.N
      = Net.gin (V c main_v16) (V c main_v26) (V c main_arg6) (row (V c main_v27)) (V c main_arg8) (row (V c main_v28)) :=
  (dat1 (F := Ideal) V c).arrAt_eq_of_cover 6
    (Net.gin (V c main_v16) (V c main_v26) (V c main_arg6) (row (V c main_v27)) (V c main_arg8) (row (V c main_v28)))
    (fun t _ => flushed1 V c t) covered1

end Cert.KernelIdeal.Blocks

end
-- ==== Proof.KernelValue.lean ====
/-
  The kernel program's result array as the network of the arguments.

  After the second call the result array holds the second graph layer of what that call found on entry: the first
  call's output array, its aggregate (computed by the host operations between the calls from that array and the
  edge list), and the second layer's weights and biases (the biases reshaped to one row). The first call's output
  array is the first graph layer of the argument rows, their aggregate, and the first layer's weights and biases.
  Composing the two, with each bias row read back as its vector, gives the network.
-/
import proofs.«144855_j14285061226552_1_alg».proof.Proof.KernelHost
import proofs.«144855_j14285061226552_1_alg».proof.Proof.KernelBlocks
import proofs.«144855_j14285061226552_1_alg».proof.Proof.Net
import Idealize.ShloMosaic.Lib.ValueLayout

noncomputable section

namespace Cert.KernelIdeal.NetValue
open Cert.KernelIdeal Cert.KernelIdeal.Gen Cert.KernelIdeal.HostVal Idealize.ShloMosaic Idealize.ShloMosaic.TcCoe Idealize.ShloMosaic.ValueIdx Idealize.SL.Sem
open Cert.Bridge Cert.Bridge.LayerAt

variable (m : (ℓ : Loc nD τ sig) → Buf (Elt Ideal) ℓ) (ρ : Dev nD → PrngReg)

/-- A bias vector reshaped to one row, read as a row, is the vector. -/
theorem row_cast {H : Nat} (b : (⟨1, ![H]⟩ : Shape).Idx → EReal) (h : (⟨1, ![H]⟩ : Shape).ShapeCasts ⟨2, ![1, H]⟩) :
    row (shapeCast ⟨2, ![1, H]⟩ b h) = Net.vec b := funext fun q => shapeCast_a_1a_apply b h 0 q

/-- The first call's output array is the first graph layer of the arguments. -/
theorem hidden (c : Dev nD) :
    (dat0 (F := Ideal) (V1 m ρ) c).arrAt 6 cfg0.N
      = Net.gin (m ((c : Thread nD τ).loc main_arg0))
          (aggOf64 (src (m ((c : Thread nD τ).loc main_arg1))) (dst (m ((c : Thread nD τ).loc main_arg1))) (m ((c : Thread nD τ).loc main_arg0)))
          (m ((c : Thread nD τ).loc main_arg2)) (Net.vec (m ((c : Thread nD τ).loc main_arg3)))
          (m ((c : Thread nD τ).loc main_arg4)) (Net.vec (m ((c : Thread nD τ).loc main_arg5))) := by
  refine (Blocks.arr0 (V1 m ρ) c).trans ?_
  have e0 : V1 m ρ c main_arg0 = m ((c : Thread nD τ).loc main_arg0) := W1_arg0 m ρ c
  have e1 : V1 m ρ c main_v13 = aggOf64 (src (m ((c : Thread nD τ).loc main_arg1))) (dst (m ((c : Thread nD τ).loc main_arg1))) (m ((c : Thread nD τ).loc main_arg0)) := W1_v13 m ρ c
  have e2 : V1 m ρ c main_arg2 = m ((c : Thread nD τ).loc main_arg2) := W1_arg2 m ρ c
  have e3 : V1 m ρ c main_v14 = shapeCast _ (m ((c : Thread nD τ).loc main_arg3)) shapeCasts_S128_S1x128 := W1_v14 m ρ c
  have e4 : V1 m ρ c main_arg4 = m ((c : Thread nD τ).loc main_arg4) := W1_arg4 m ρ c
  have e5 : V1 m ρ c main_v15 = shapeCast _ (m ((c : Thread nD τ).loc main_arg5)) shapeCasts_S128_S1x128 := W1_v15 m ρ c
  rw [e0, e1, e2, e3, e4, e5, row_cast, row_cast]

/-- The program's result array is the network of the arguments, each layer's aggregate the gather by source node
    and sum by target node of that layer's input. -/
theorem result (c : Dev nD) :
    W4 (F := Ideal) m ρ c (Proc.devRef .tc main_v29)
      = Net.net (aggOf64 (src (m ((c : Thread nD τ).loc main_arg1))) (dst (m ((c : Thread nD τ).loc main_arg1))))
          (aggOf128 (src (m ((c : Thread nD τ).loc main_arg1))) (dst (m ((c : Thread nD τ).loc main_arg1))))
          (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) := by
  refine (W4_arr m ρ c 6).trans ?_
  refine (Blocks.arr1 (V3 m ρ) c).trans ?_
  have e0 : V3 m ρ c main_v16 = (dat0 (V1 m ρ) c).arrAt 6 cfg0.N := W3_v16 m ρ c
  have e1 : V3 m ρ c main_v26 = aggOf128 (src (m ((c : Thread nD τ).loc main_arg1))) (dst (m ((c : Thread nD τ).loc main_arg1))) ((dat0 (V1 m ρ) c).arrAt 6 cfg0.N) := W3_v26 m ρ c
  have e2 : V3 m ρ c main_arg6 = m ((c : Thread nD τ).loc main_arg6) := W3_arg6 m ρ c
  have e3 : V3 m ρ c main_v27 = shapeCast _ (m ((c : Thread nD τ).loc main_arg7)) shapeCasts_S128_S1x128 := W3_v27 m ρ c
  have e4 : V3 m ρ c main_arg8 = m ((c : Thread nD τ).loc main_arg8) := W3_arg8 m ρ c
  have e5 : V3 m ρ c main_v28 = shapeCast _ (m ((c : Thread nD τ).loc main_arg9)) shapeCasts_S64_S1x64 := W3_v28 m ρ c
  rw [e0, e1, e2, e3, e4, e5, row_cast, row_cast, hidden m ρ c]
  rfl

end Cert.KernelIdeal.NetValue
end
-- ==== Proof.RefNet.lean ====
/-
  The reference program's result is the two-layer network.

  Each graph layer of the reference is read one operation at a time: the combined rows x + a (a the layer's
  aggregate, kept closed throughout), a contraction over the input features with the first weights plus the first
  bias, a clamp below at zero, a contraction over the hidden features with the second weights plus the second bias,
  and a second clamp. At entry (p, q) a contraction reads its left operand at (p, k) and its right operand at (k, q),
  and a bias spread over the rows is read at q; so the entry is the network's layer at (p, q). The second layer's
  aggregate is the gather-by-source, sum-by-target function of the first layer's output that the network takes as its
  parameter, and the two layers compose to the network.
-/
import proofs.«144855_j14285061226552_1_alg».proof.Proof.Gen.ReferenceIdeal.Read
import proofs.«144855_j14285061226552_1_alg».proof.Proof.Net

noncomputable section

open scoped BigOperators

namespace Cert.ReferenceIdeal.RefNet
open Cert.ReferenceIdeal Cert.ReferenceIdeal.Gen Cert.ReferenceIdeal.Read Idealize.ShloMosaic Idealize.ShloMosaic.TcCoe Idealize.ShloMosaic.ValueIdx Idealize.SL.Sem
open Cert.Bridge Cert.Bridge.LayerAt

/-! ## Layer 1, first dense layer: 64 input features into 128 hidden -/

/-- At output entry (p, q) and contraction coordinate k the left operand is read at (p, k). -/
theorem lidx15 (p : Fin 50000) (q : Fin 128) (k : Fin 64) : lidx_main_v15 (ix2 p q) k = ix2 p k :=
  funext fun a => Fin.ext (by match a with | ⟨0, _⟩ => rfl | ⟨1, _⟩ => rfl)
/-- At output entry (p, q) and contraction coordinate k the right operand is read at (k, q). -/
theorem ridx15 (p : Fin 50000) (q : Fin 128) (k : Fin 64) : ridx_main_v15 (ix2 p q) k = ix2 k q :=
  funext fun a => Fin.ext (by match a with | ⟨0, _⟩ => rfl | ⟨1, _⟩ => rfl)
/-- The bias, spread first to one row and then over all rows, is read at entry (p, q) at its coordinate q. -/
theorem bidx17 (p : Fin 50000) (q : Fin 128) : idx_main_v16 (idx_main_v17 (ix2 p q)) = ix1 q :=
  funext fun a => Fin.ext (by match a with | ⟨0, _⟩ => rfl)

/-- The first layer's hidden activations: the clamped dense layer of the combined rows x + a. -/
theorem hidden1 (x0 : (⟨S50000x64, .f32⟩ : BufTy).Contents (Elt Ideal)) (x1 : (⟨S2x800000, .i32⟩ : BufTy).Contents (Elt Ideal))
    (x2 : (⟨S64x128, .f32⟩ : BufTy).Contents (Elt Ideal)) (x3 : (⟨S128, .f32⟩ : BufTy).Contents (Elt Ideal))
    (p : Fin 50000) (q : Fin 128) :
    val_main_v19 (F := Ideal) x0 x1 x2 x3 (ix2 p q)
      = Spec.layer (Net.combine x0 (val_main_v13 (F := Ideal) x0 x1)) (mat x2) (Net.vec x3) p q := by
  rw [val_main_v19_apply, val_main_v18_apply, val_main_v15_apply, val_main_v17_apply, val_main_v16_apply,
    val_main_call0_v0_apply, val_main_call0_cst_apply, bidx17]
  have hs : ∀ k : Fin 64, val_main_v14 (F := Ideal) x0 x1 (lidx_main_v15 (ix2 p q) k) * x2 (ridx_main_v15 (ix2 p q) k)
      = Net.combine x0 (val_main_v13 (F := Ideal) x0 x1) p k * mat x2 k q := fun k => by
    rw [lidx15, ridx15, val_main_v14_apply]
    rfl
  rw [Finset.sum_congr rfl fun k _ => hs k]
  rfl

/-! ## Layer 1, second dense layer: 128 hidden into 128 -/

theorem lidx20 (p : Fin 50000) (q k : Fin 128) : lidx_main_v20 (ix2 p q) k = ix2 p k :=
  funext fun a => Fin.ext (by match a with | ⟨0, _⟩ => rfl | ⟨1, _⟩ => rfl)
theorem ridx20 (p : Fin 50000) (q k : Fin 128) : ridx_main_v20 (ix2 p q) k = ix2 k q :=
  funext fun a => Fin.ext (by match a with | ⟨0, _⟩ => rfl | ⟨1, _⟩ => rfl)
theorem bidx22 (p : Fin 50000) (q : Fin 128) : idx_main_v21 (idx_main_v22 (ix2 p q)) = ix1 q :=
  funext fun a => Fin.ext (by match a with | ⟨0, _⟩ => rfl)

/-- The first graph layer of the reference is the network's layer of the input and its aggregate. -/
theorem layer1
    (x0 : (⟨S50000x64, .f32⟩ : BufTy).Contents (Elt Ideal)) (x1 : (⟨S2x800000, .i32⟩ : BufTy).Contents (Elt Ideal))
    (x2 : (⟨S64x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v24 (F := Ideal) x0 x1 x2 x3 x4 x5
      = Net.gin x0 (val_main_v13 (F := Ideal) x0 x1) x2 (Net.vec x3) x4 (Net.vec x5) := by
  refine Net.eq_gin _ _ _ _ _ _ _ fun p q => ?_
  rw [val_main_v24_apply, val_main_v23_apply, val_main_v20_apply, val_main_v22_apply, val_main_v21_apply,
    val_main_call1_v0_apply, val_main_call1_cst_apply, bidx22]
  have hs : ∀ k : Fin 128, val_main_v19 (F := Ideal) x0 x1 x2 x3 (lidx_main_v20 (ix2 p q) k) * x4 (ridx_main_v20 (ix2 p q) k)
      = Spec.layer (Net.combine x0 (val_main_v13 (F := Ideal) x0 x1)) (mat x2) (Net.vec x3) p k * mat x4 k q := fun k => by
    rw [lidx20, ridx20, hidden1]
  rw [Finset.sum_congr rfl fun k _ => hs k]
  rfl

/-! ## Layer 2, first dense layer: 128 features into 128 hidden -/

theorem lidx36 (p : Fin 50000) (q k : Fin 128) : lidx_main_v36 (ix2 p q) k = ix2 p k :=
  funext fun a => Fin.ext (by match a with | ⟨0, _⟩ => rfl | ⟨1, _⟩ => rfl)
theorem ridx36 (p : Fin 50000) (q k : Fin 128) : ridx_main_v36 (ix2 p q) k = ix2 k q :=
  funext fun a => Fin.ext (by match a with | ⟨0, _⟩ => rfl | ⟨1, _⟩ => rfl)
theorem bidx38 (p : Fin 50000) (q : Fin 128) : idx_main_v37 (idx_main_v38 (ix2 p q)) = ix1 q :=
  funext fun a => Fin.ext (by match a with | ⟨0, _⟩ => rfl)

/-- The second layer's hidden activations: the clamped dense layer of h + a, for h the first layer's output and a its
    aggregate, both kept closed. -/
theorem hidden2
    (x0 : (⟨S50000x64, .f32⟩ : BufTy).Contents (Elt Ideal)) (x1 : (⟨S2x800000, .i32⟩ : BufTy).Contents (Elt Ideal))
    (x2 : (⟨S64x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (p : Fin 50000) (q : Fin 128) :
    val_main_v40 (F := Ideal) x0 x1 x2 x3 x4 x5 x6 x7 (ix2 p q)
      = Spec.layer (Net.combine (val_main_v24 (F := Ideal) x0 x1 x2 x3 x4 x5) (val_main_v34 (F := Ideal) x0 x1 x2 x3 x4 x5))
          (mat x6) (Net.vec x7) p q := by
  rw [val_main_v40_apply, val_main_v39_apply, val_main_v36_apply, val_main_v38_apply, val_main_v37_apply,
    val_main_call2_v0_apply, val_main_call2_cst_apply, bidx38]
  have hs : ∀ k : Fin 128, val_main_v35 (F := Ideal) x0 x1 x2 x3 x4 x5 (lidx_main_v36 (ix2 p q) k) * x6 (ridx_main_v36 (ix2 p q) k)
      = Net.combine (val_main_v24 (F := Ideal) x0 x1 x2 x3 x4 x5) (val_main_v34 (F := Ideal) x0 x1 x2 x3 x4 x5) p k * mat x6 k q :=
    fun k => by
      rw [lidx36, ridx36, val_main_v35_apply]
      generalize val_main_v24 (F := Ideal) x0 x1 x2 x3 x4 x5 = h
      generalize val_main_v34 (F := Ideal) x0 x1 x2 x3 x4 x5 = a
      rfl
  rw [Finset.sum_congr rfl fun k _ => hs k]
  generalize val_main_v24 (F := Ideal) x0 x1 x2 x3 x4 x5 = h
  generalize val_main_v34 (F := Ideal) x0 x1 x2 x3 x4 x5 = a
  rfl

/-! ## Layer 2, second dense layer: 128 hidden into 64 -/

theorem lidx41 (p : Fin 50000) (q : Fin 64) (k : Fin 128) : lidx_main_v41 (ix2 p q) k = ix2 p k :=
  funext fun a => Fin.ext (by match a with | ⟨0, _⟩ => rfl | ⟨1, _⟩ => rfl)
theorem ridx41 (p : Fin 50000) (q : Fin 64) (k : Fin 128) : ridx_main_v41 (ix2 p q) k = ix2 k q :=
  funext fun a => Fin.ext (by match a with | ⟨0, _⟩ => rfl | ⟨1, _⟩ => rfl)
theorem bidx43 (p : Fin 50000) (q : Fin 64) : idx_main_v42 (idx_main_v43 (ix2 p q)) = ix1 q :=
  funext fun a => Fin.ext (by match a with | ⟨0, _⟩ => rfl)

/-- The second graph layer of the reference is the network's layer of the first layer's output and its aggregate. -/
theorem layer2
    (x0 : (⟨S50000x64, .f32⟩ : BufTy).Contents (Elt Ideal)) (x1 : (⟨S2x800000, .i32⟩ : BufTy).Contents (Elt Ideal))
    (x2 : (⟨S64x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x64, .f32⟩ : BufTy).Contents (Elt Ideal)) (x9 : (⟨S64, .f32⟩ : BufTy).Contents (Elt Ideal)) :
    val_main_v45 (F := Ideal) x0 x1 x2 x3 x4 x5 x6 x7 x8 x9
      = Net.gin (val_main_v24 (F := Ideal) x0 x1 x2 x3 x4 x5) (val_main_v34 (F := Ideal) x0 x1 x2 x3 x4 x5)
          x6 (Net.vec x7) x8 (Net.vec x9) := by
  refine Net.eq_gin _ _ _ _ _ _ _ fun p q => ?_
  rw [val_main_v45_apply, val_main_v44_apply, val_main_v41_apply, val_main_v43_apply, val_main_v42_apply,
    val_main_call3_v0_apply, val_main_call3_cst_apply, bidx43]
  have hs : ∀ k : Fin 128, val_main_v40 (F := Ideal) x0 x1 x2 x3 x4 x5 x6 x7 (lidx_main_v41 (ix2 p q) k) * x8 (ridx_main_v41 (ix2 p q) k)
      = Spec.layer (Net.combine (val_main_v24 (F := Ideal) x0 x1 x2 x3 x4 x5) (val_main_v34 (F := Ideal) x0 x1 x2 x3 x4 x5))
          (mat x6) (Net.vec x7) p k * mat x8 k q := fun k => by
    rw [lidx41, ridx41, hidden2]
  rw [Finset.sum_congr rfl fun k _ => hs k]
  generalize val_main_v24 (F := Ideal) x0 x1 x2 x3 x4 x5 = h
  generalize val_main_v34 (F := Ideal) x0 x1 x2 x3 x4 x5 = a
  rfl

/-! ## The aggregate of layer 2, and the whole network -/

/-- Layer 2's aggregate as a function of layer 2's input: the rows gathered by source node, summed by target node. -/
def agg128 (e : (⟨S2x800000, .i32⟩ : BufTy).Contents (Elt Ideal)) (h : (⟨S50000x128, .f32⟩ : BufTy).Contents (Elt Ideal)) :
    (⟨S50000x128, .f32⟩ : BufTy).Contents (Elt Ideal) :=
  Host.scatterAdd (F := Ideal) (φ := .f32) scatter_S50000x128_S800000x1_S800000x128_1_0_0_1 (val_main_v32 (F := Ideal)) (val_main_v33 (F := Ideal) e)
    (Host.gather gather_S50000x128_S800000x1_S800000x128_1_0_n_n_0_1_1128 h (val_main_v30 (F := Ideal) e))

/-- The reference's second aggregate is that function of the first layer's output: the gather's operand is the first
    layer's output, and the target rows, source rows and the zero accumulator depend on the edge list alone. -/
theorem agg2_eq
    (x0 : (⟨S50000x64, .f32⟩ : BufTy).Contents (Elt Ideal)) (x1 : (⟨S2x800000, .i32⟩ : BufTy).Contents (Elt Ideal))
    (x2 : (⟨S64x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v34 (F := Ideal) x0 x1 x2 x3 x4 x5 = agg128 x1 (val_main_v24 (F := Ideal) x0 x1 x2 x3 x4 x5) := by
  unfold val_main_v34 val_main_v31 agg128
  rfl

/-- The reference's result is the network, with each layer's aggregate the reference's own gather-then-sum of that
    layer's input. -/
theorem result_eq (x0 : (⟨S50000x64, .f32⟩ : BufTy).Contents (Elt Ideal)) (x1 : (⟨S2x800000, .i32⟩ : BufTy).Contents (Elt Ideal))
    (x2 : (⟨S64x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x64, .f32⟩ : BufTy).Contents (Elt Ideal)) (x9 : (⟨S64, .f32⟩ : BufTy).Contents (Elt Ideal)) :
    val_main_v45 (F := Ideal) x0 x1 x2 x3 x4 x5 x6 x7 x8 x9
      = Net.net (fun x => val_main_v13 (F := Ideal) x x1) (agg128 x1) x0 x2 x3 x4 x5 x6 x7 x8 x9 := by
  show _ = Net.gin (Net.gin x0 (val_main_v13 (F := Ideal) x0 x1) x2 (Net.vec x3) x4 (Net.vec x5))
      (agg128 x1 (Net.gin x0 (val_main_v13 (F := Ideal) x0 x1) x2 (Net.vec x3) x4 (Net.vec x5))) x6 (Net.vec x7) x8 (Net.vec x9)
  rw [← layer1, ← agg2_eq]
  exact layer2 x0 x1 x2 x3 x4 x5 x6 x7 x8 x9

end Cert.ReferenceIdeal.RefNet
end
-- ==== Proof.Aggregates.lean ====
/-
  The two programs aggregate neighbour rows by the same operations: the edge list's first row gives each edge's
  source node (a negative index counted from the end), the rows of the layer's input are gathered by source node,
  and the gathered rows are summed into a zero array by the edge list's second row, the target node. The two
  printed programs spell this with their own copies of the same dimension records and shape facts, so the two
  aggregate functions are one function, by unfolding the names alone; the gather and the sum are never opened.
-/
import proofs.«144855_j14285061226552_1_alg».proof.Proof.KernelHost
import proofs.«144855_j14285061226552_1_alg».proof.Proof.RefNet

noncomputable section

namespace Cert.Proof.Agg
open Idealize.ShloMosaic

/-- Both programs aggregate 64-feature rows by the same gather and sum. -/
theorem agg64_eq (e : (⟨Cert.KernelIdeal.S2x800000, .i32⟩ : BufTy).Contents (Elt Ideal)) :
    Cert.KernelIdeal.HostVal.aggOf64 (Cert.KernelIdeal.HostVal.src e) (Cert.KernelIdeal.HostVal.dst e)
      = fun x => Cert.ReferenceIdeal.Read.val_main_v13 (F := Ideal) x e := by
  funext x
  unfold Cert.KernelIdeal.HostVal.aggOf64 Cert.KernelIdeal.HostVal.srcCol Cert.KernelIdeal.HostVal.src Cert.KernelIdeal.HostVal.dst
    Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_cst
    Cert.ReferenceIdeal.Read.val_main_c Cert.ReferenceIdeal.Read.val_main_c_0
  rfl

/-- Both programs aggregate 128-feature rows by the same gather and sum. -/
theorem agg128_eq (e : (⟨Cert.KernelIdeal.S2x800000, .i32⟩ : BufTy).Contents (Elt Ideal)) :
    Cert.KernelIdeal.HostVal.aggOf128 (Cert.KernelIdeal.HostVal.src e) (Cert.KernelIdeal.HostVal.dst e)
      = Cert.ReferenceIdeal.RefNet.agg128 e := by
  funext h
  unfold Cert.KernelIdeal.HostVal.aggOf128 Cert.KernelIdeal.HostVal.srcCol Cert.KernelIdeal.HostVal.src Cert.KernelIdeal.HostVal.dst
    Cert.ReferenceIdeal.RefNet.agg128 Cert.ReferenceIdeal.Read.val_main_v33 Cert.ReferenceIdeal.Read.val_main_v32
    Cert.ReferenceIdeal.Read.val_main_v30 Cert.ReferenceIdeal.Read.val_main_v29
    Cert.ReferenceIdeal.Read.val_main_v28 Cert.ReferenceIdeal.Read.val_main_v27 Cert.ReferenceIdeal.Read.val_main_v26
    Cert.ReferenceIdeal.Read.val_main_v25 Cert.ReferenceIdeal.Read.val_main_v3 Cert.ReferenceIdeal.Read.val_main_v2
    Cert.ReferenceIdeal.Read.val_main_v1 Cert.ReferenceIdeal.Read.val_main_v0 Cert.ReferenceIdeal.Read.val_main_cst_3
    Cert.ReferenceIdeal.Read.val_main_c_1 Cert.ReferenceIdeal.Read.val_main_c_2
  rfl

end Cert.Proof.Agg
end
-- ==== Proof.lean ====
/-
  The certificate: a two-layer graph network computed by a fused kernel equals its plain reference.

  Both programs take node features x (50000 × 64), an edge list, and four weight matrices with their biases. Each
  of the two layers forms, for every node, the sum of its own row and the rows of its neighbours (the neighbours'
  rows gathered by the edges' source nodes and summed by their target nodes), and passes the sum through two dense
  layers, each clamped below at zero. The kernel program computes the gather and the sum on the host and the rest
  of each layer in one call that works on blocks of 5000 rows, its matrix products taken through a narrower float
  format; the reference computes everything with whole-array operations.

  On the extended reals a change of float format is the identity and a matrix product into a zero accumulator is
  the sum over the contracted axis, read at an entry exactly as the host's product is; row p of a layer's output
  depends on row p of its input alone, so the blocks of the kernel's output are the rows of the whole layer and
  cover it; and the gather and the sum are the same operations on the same operands in both programs, so they are
  never opened. No law that needs finite operands is used: the two results are the same expression, entry by entry.
  The three frames are the generated ones (the reference's from its run), and the idealization rewrote nothing.
-/
import proofs.«144855_j14285061226552_1_alg».proof.Defs
import proofs.«144855_j14285061226552_1_alg».proof.Proof.Gen.Kernel
import proofs.«144855_j14285061226552_1_alg».proof.Proof.Gen.Kernel.Frame
import proofs.«144855_j14285061226552_1_alg».proof.Proof.Gen.KernelIdeal
import proofs.«144855_j14285061226552_1_alg».proof.Proof.Gen.KernelIdeal.Frame
import proofs.«144855_j14285061226552_1_alg».proof.Proof.Gen.ReferenceIdeal
import proofs.«144855_j14285061226552_1_alg».proof.Proof.Gen.Pre_finite_inputs
import proofs.«144855_j14285061226552_1_alg».proof.Proof.Gen.ReferenceIdeal.Run
import proofs.«144855_j14285061226552_1_alg».proof.Proof.Gen.ReferenceIdeal.Read
import proofs.«144855_j14285061226552_1_alg».proof.Proof.KernelRun
import proofs.«144855_j14285061226552_1_alg».proof.Proof.KernelValue
import proofs.«144855_j14285061226552_1_alg».proof.Proof.RefNet
import proofs.«144855_j14285061226552_1_alg».proof.Proof.Aggregates
import Idealize.ShloMosaic.Adequacy
import Idealize.ShloMosaic.Init

noncomputable section

namespace Cert.Proof

open Idealize.ShloMosaic Idealize.ShloMosaic.TcCoe Idealize.SL.Sem
open Cert.Bridge

/-- The word-level program runs and leaves its arguments unchanged. -/
theorem frame_kernel : Cert.frame_Kernel := fun m ρ _ => Cert.Kernel.Gen.frame m ρ

/-- The idealized program runs and leaves its arguments unchanged. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network of the arguments in their result array. -/
theorem algebraic : Cert.algebraic_KernelIdeal_ReferenceIdeal := by
  intro m ρ m' ρ' _ hagree
  refine ⟨fun c => Net.net
        (Cert.KernelIdeal.HostVal.aggOf64 (Cert.KernelIdeal.HostVal.src (m ((c.tc : Thread Cert.KernelIdeal.nD Cert.KernelIdeal.τ).loc Cert.KernelIdeal.main_arg1))) (Cert.KernelIdeal.HostVal.dst (m ((c.tc : Thread Cert.KernelIdeal.nD Cert.KernelIdeal.τ).loc Cert.KernelIdeal.main_arg1))))
        (Cert.KernelIdeal.HostVal.aggOf128 (Cert.KernelIdeal.HostVal.src (m ((c.tc : Thread Cert.KernelIdeal.nD Cert.KernelIdeal.τ).loc Cert.KernelIdeal.main_arg1))) (Cert.KernelIdeal.HostVal.dst (m ((c.tc : Thread Cert.KernelIdeal.nD Cert.KernelIdeal.τ).loc Cert.KernelIdeal.main_arg1))))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.Whole.run_all (F := Ideal) m ρ)
    exact ⟨(h c _ (Cert.KernelIdeal.Gen.mem_uc Cert.KernelIdeal.main_v29 (by decide))).trans (Cert.KernelIdeal.NetValue.result m ρ c),
      (h c _ (Cert.KernelIdeal.Gen.mem_uc Cert.KernelIdeal.main_arg0 (by decide))).trans (Cert.KernelIdeal.Gen.W4_main_arg0 m ρ c),
      (h c _ (Cert.KernelIdeal.Gen.mem_uc Cert.KernelIdeal.main_arg1 (by decide))).trans (Cert.KernelIdeal.Gen.W4_main_arg1 m ρ c),
      (h c _ (Cert.KernelIdeal.Gen.mem_uc Cert.KernelIdeal.main_arg2 (by decide))).trans (Cert.KernelIdeal.Gen.W4_main_arg2 m ρ c),
      (h c _ (Cert.KernelIdeal.Gen.mem_uc Cert.KernelIdeal.main_arg3 (by decide))).trans (Cert.KernelIdeal.Gen.W4_main_arg3 m ρ c),
      (h c _ (Cert.KernelIdeal.Gen.mem_uc Cert.KernelIdeal.main_arg4 (by decide))).trans (Cert.KernelIdeal.Gen.W4_main_arg4 m ρ c),
      (h c _ (Cert.KernelIdeal.Gen.mem_uc Cert.KernelIdeal.main_arg5 (by decide))).trans (Cert.KernelIdeal.Gen.W4_main_arg5 m ρ c),
      (h c _ (Cert.KernelIdeal.Gen.mem_uc Cert.KernelIdeal.main_arg6 (by decide))).trans (Cert.KernelIdeal.Gen.W4_main_arg6 m ρ c),
      (h c _ (Cert.KernelIdeal.Gen.mem_uc Cert.KernelIdeal.main_arg7 (by decide))).trans (Cert.KernelIdeal.Gen.W4_main_arg7 m ρ c),
      (h c _ (Cert.KernelIdeal.Gen.mem_uc Cert.KernelIdeal.main_arg8 (by decide))).trans (Cert.KernelIdeal.Gen.W4_main_arg8 m ρ c),
      (h c _ (Cert.KernelIdeal.Gen.mem_uc Cert.KernelIdeal.main_arg9 (by decide))).trans (Cert.KernelIdeal.Gen.W4_main_arg9 m ρ c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v45_eq, Cert.ReferenceIdeal.RefNet.result_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2,
      ← Agg.agg64_eq, ← Agg.agg128_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
